-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200x64 : Shape := ⟨3, ![4096, 200, 64]⟩
abbrev S201x64 : Shape := ⟨2, ![201, 64]⟩
abbrev S_ : Shape := ⟨0, ![]⟩
abbrev S1x64 : Shape := ⟨2, ![1, 64]⟩

class Facts : Prop where
  bcast_S_S4096x200x64 : S_.BroadcastsInDim S4096x200x64 (![] : Fin 0 → Fin S4096x200x64.rank)
  reducesTo_S4096x200x64_S_d0_1_2 : S4096x200x64.ReducesTo [0, 1, 2] S_
  h_S_ : 0 < S_.numel
  bcast_S_S201x64 : S_.BroadcastsInDim S201x64 (![] : Fin 0 → Fin S201x64.rank)
  reducesTo_S201x64_S_d0_1 : S201x64.ReducesTo [0, 1] S_
  slices_S201x64_S1x64_0_0 : S201x64.Slices ![0, 0] S1x64
  bcast_S_S1x64 : S_.BroadcastsInDim S1x64 (![] : Fin 0 → Fin S1x64.rank)
  reducesTo_S1x64_S_d0_1 : S1x64.ReducesTo [0, 1] S_

variable [Facts]

def fn {F : FTy → Type} [FloatOps F] (main_arg0 : FVec F S4096x200x64 .f32) (main_arg1 : FVec F S201x64 .f32) : IVec S_ 1 :=
  let main_v0 : FVec F S4096x200x64 .f32 := Host.absf main_arg0
  let main_cst : FVec F S_ .f32 := constant S_ .f32 0x7F800000#32
  let main_v1 : FVec F S4096x200x64 .f32 := broadcastInDim S4096x200x64 ![] bcast_S_S4096x200x64 main_cst
  let main_v2 : IVec S4096x200x64 1 := cmpf .olt main_v0 main_v1
  let main_c : IVec S_ 1 := constantI S_ 1 1#1
  let main_v3 : IVec S_ 1 := (fun x v => Host.reduce IntOp.andi x v reducesTo_S4096x200x64_S_d0_1_2 h_S_) main_v2 main_c
  let main_v4 : FVec F S201x64 .f32 := Host.absf main_arg1
  let main_cst_0 : FVec F S_ .f32 := constant S_ .f32 0x7F800000#32
  let main_v5 : FVec F S201x64 .f32 := broadcastInDim S201x64 ![] bcast_S_S201x64 main_cst_0
  let main_v6 : IVec S201x64 1 := cmpf .olt main_v4 main_v5
  let main_c_1 : IVec S_ 1 := constantI S_ 1 1#1
  let main_v7 : IVec S_ 1 := (fun x v => Host.reduce IntOp.andi x v reducesTo_S201x64_S_d0_1 h_S_) main_v6 main_c_1
  let main_v8 : IVec S_ 1 := andi main_v3 main_v7
  let main_v9 : FVec F S1x64 .f32 := (extractStridedSlice S1x64 ![0, 0] · slices_S201x64_S1x64_0_0) main_arg1
  let main_cst_2 : FVec F S_ .f32 := constant S_ .f32 0x00000000#32
  let main_v10 : FVec F S1x64 .f32 := broadcastInDim S1x64 ![] bcast_S_S1x64 main_cst_2
  let main_v11 : IVec S1x64 1 := cmpf .oeq main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  main_v13
-- ==== Kernel.lean ====
abbrev S4096x200x64 : Shape := ⟨3, ![4096, 200, 64]⟩
abbrev S201x64 : Shape := ⟨2, ![201, 64]⟩
abbrev S4096x100x128 : Shape := ⟨3, ![4096, 100, 128]⟩
abbrev S200x64 : Shape := ⟨2, ![200, 64]⟩
abbrev S100x128 : Shape := ⟨2, ![100, 128]⟩
abbrev S128x100x128 : Shape := ⟨3, ![128, 100, 128]⟩
abbrev S128x100x64 : Shape := ⟨3, ![128, 100, 64]⟩
abbrev S128x100 : Shape := ⟨2, ![128, 100]⟩
abbrev S128x100x1 : Shape := ⟨3, ![128, 100, 1]⟩
abbrev S100x64 : Shape := ⟨2, ![100, 64]⟩
abbrev S1x100x64 : Shape := ⟨3, ![1, 100, 64]⟩

abbrev nBuf : Space → Nat
  | .hbm => 7
  | .vmem => 5
  | .smem => 0
  | _ => 0

abbrev bufTy : (tb : Table) → Fin (tcTables nBuf tb) → BufTy
  | .hbm, ⟨0, _⟩ => ⟨S4096x200x64, .f32⟩
  | .hbm, ⟨1, _⟩ => ⟨S201x64, .f32⟩
  | .hbm, ⟨2, _⟩ => ⟨S4096x100x128, .f32⟩
  | .hbm, ⟨3, _⟩ => ⟨S200x64, .f32⟩
  | .hbm, ⟨4, _⟩ => ⟨S100x128, .f32⟩
  | .hbm, ⟨5, _⟩ => ⟨S4096x100x128, .f32⟩
  | .hbm, ⟨6, _⟩ => ⟨S4096x200x64, .f32⟩
  | .local _ .vmem, ⟨0, _⟩ => ⟨S128x100x128, .f32⟩
  | .local _ .vmem, ⟨1, _⟩ => ⟨S128x100x128, .f32⟩
  | .local _ .vmem, ⟨2, _⟩ => ⟨S100x128, .f32⟩
  | .local _ .vmem, ⟨3, _⟩ => ⟨S128x100x128, .f32⟩
  | .local _ .vmem, ⟨4, _⟩ => ⟨S128x100x128, .f32⟩
  | _, _ => ⟨S4096x200x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x100x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x100x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096x200x64_S4096x100x128 : S4096x200x64.ShapeCasts S4096x100x128
  slices_S201x64_S200x64_1_0 : S201x64.Slices ![1, 0] S200x64
  shapeCasts_S200x64_S100x128 : S200x64.ShapeCasts S100x128
  inb_S128x100x128_S128x100x128_0_0_0 : ∀ a, (![0, 0, 0] : Fin 3 → Nat) a + S128x100x128.size a ≤ S128x100x128.size a
  h_S128x100x128 : 0 < S128x100x128.numel
  shapeCasts_S128x100x128_S128x100x128 : S128x100x128.ShapeCasts S128x100x128
  inb_S100x128_S100x128_0_0 : ∀ a, (![0, 0] : Fin 2 → Nat) a + S100x128.size a ≤ S100x128.size a
  h_S100x128 : 0 < S100x128.numel
  shapeCasts_S100x128_S100x128 : S100x128.ShapeCasts S100x128
  slices_S128x100x128_o0_0_0_S128x100x64 : S128x100x128.Slices ![0, 0, 0] S128x100x64
  slices_S128x100x128_o0_0_64_S128x100x64 : S128x100x128.Slices ![0, 0, 64] S128x100x64
  reduces_S128x100x64_S128x100 : S128x100x64.Reduces [2] S128x100
  shapeCasts_S128x100_S128x100x1 : S128x100.ShapeCasts S128x100x1
  natLt_1_32 : 1 < 32
  slices_S100x128_o0_0_S100x64 : S100x128.Slices ![0, 0] S100x64
  shapeCasts_S100x64_S1x100x64 : S100x64.ShapeCasts S1x100x64
  broadcasts_S128x100x1_S128x100x64 : S128x100x1.Broadcasts S128x100x64
  broadcasts_S1x100x64_S128x100x64 : S1x100x64.Broadcasts S128x100x64
  inb_S128x100x128_S128x100x64_0_0_0 : ∀ a, (![0, 0, 0] : Fin 3 → Nat) a + S128x100x64.size a ≤ S128x100x128.size a
  h_S128x100x64 : 0 < S128x100x64.numel
  slices_S100x128_o0_64_S100x64 : S100x128.Slices ![0, 64] S100x64
  inb_S128x100x128_S128x100x64_0_0_64 : ∀ a, (![0, 0, 64] : Fin 3 → Nat) a + S128x100x64.size a ≤ S128x100x128.size a
  shapeCasts_S4096x100x128_S4096x200x64 : S4096x100x128.ShapeCasts S4096x200x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x100x128.size a ≤ S4096x100x128.size a
  hwx0_0 : ∀ i : grid0.Coords, EltTy.bits .f32 = 32 ∨ (Rect.block (s := S4096x100x128) S128x100x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x128.size a ≤ S100x128.size a
  hwx0_1 : ∀ i : grid0.Coords, EltTy.bits .f32 = 32 ∨ (Rect.block (s := S100x128) S100x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x100x128.size a ≤ S4096x100x128.size a
  hwx0_2 : ∀ i : grid0.Coords, EltTy.bits .f32 = 32 ∨ (Rect.block (s := S4096x100x128) S128x100x128.size (cc0_transform_2 i) (hinb0_2 i)).WholeWords (EltTy.packing .f32)

variable [Facts₀]

abbrev win0_0 : Pipeline.Window sig grid0 :=
  Pipeline.Window.ofSpec (Memref.whole main_v0) S128x100x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S100x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x100x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x200x64 : Shape := ⟨3, ![4096, 200, 64]⟩
abbrev S201x64 : Shape := ⟨2, ![201, 64]⟩
abbrev S_ : Shape := ⟨0, ![]⟩
abbrev S4096x200 : Shape := ⟨2, ![4096, 200]⟩
abbrev S200 : Shape := ⟨1, ![200]⟩
abbrev S1x200 : Shape := ⟨2, ![1, 200]⟩
abbrev S4096x200x1 : Shape := ⟨3, ![4096, 200, 1]⟩
abbrev S1 : Shape := ⟨1, ![1]⟩
abbrev S1x1x1 : Shape := ⟨3, ![1, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S4096x200x64, .f32⟩
  | .hbm, ⟨1, _⟩ => ⟨S201x64, .f32⟩
  | .hbm, ⟨2, _⟩ => ⟨S_, .f32⟩
  | .hbm, ⟨3, _⟩ => ⟨S4096x200, .f32⟩
  | .hbm, ⟨4, _⟩ => ⟨S_, .f32⟩
  | .hbm, ⟨5, _⟩ => ⟨S4096x200, .f32⟩
  | .hbm, ⟨6, _⟩ => ⟨S4096x200, .i1⟩
  | .hbm, ⟨7, _⟩ => ⟨S200, .i32⟩
  | .hbm, ⟨8, _⟩ => ⟨S_, .i32⟩
  | .hbm, ⟨9, _⟩ => ⟨S200, .i32⟩
  | .hbm, ⟨10, _⟩ => ⟨S200, .i32⟩
  | .hbm, ⟨11, _⟩ => ⟨S1x200, .i32⟩
  | .hbm, ⟨12, _⟩ => ⟨S4096x200, .i32⟩
  | .hbm, ⟨13, _⟩ => ⟨S_, .i32⟩
  | .hbm, ⟨14, _⟩ => ⟨S_, .i32⟩
  | .hbm, ⟨15, _⟩ => ⟨S4096x200, .i32⟩
  | .hbm, ⟨16, _⟩ => ⟨S4096x200, .i32⟩
  | .hbm, ⟨17, _⟩ => ⟨S_, .i32⟩
  | .hbm, ⟨18, _⟩ => ⟨S4096x200, .i32⟩
  | .hbm, ⟨19, _⟩ => ⟨S4096x200, .i1⟩
  | .hbm, ⟨20, _⟩ => ⟨S_, .i32⟩
  | .hbm, ⟨21, _⟩ => ⟨S4096x200, .i32⟩
  | .hbm, ⟨22, _⟩ => ⟨S4096x200, .i32⟩
  | .hbm, ⟨23, _⟩ => ⟨S4096x200, .i32⟩
  | .hbm, ⟨24, _⟩ => ⟨S4096x200x1, .i32⟩
  | .hbm, ⟨25, _⟩ => ⟨S1, .i32⟩
  | .hbm, ⟨26, _⟩ => ⟨S_, .i32⟩
  | .hbm, ⟨27, _⟩ => ⟨S4096x200x1, .i32⟩
  | .hbm, ⟨28, _⟩ => ⟨S4096x200x1, .i1⟩
  | .hbm, ⟨29, _⟩ => ⟨S1x1x1, .i32⟩
  | .hbm, ⟨30, _⟩ => ⟨S4096x200x1, .i32⟩
  | .hbm, ⟨31, _⟩ => ⟨S4096x200x1, .i1⟩
  | .hbm, ⟨32, _⟩ => ⟨S4096x200x1, .i1⟩
  | .hbm, ⟨33, _⟩ => ⟨S_, .i1⟩
  | .hbm, ⟨34, _⟩ => ⟨S4096x200, .i1⟩
  | .hbm, ⟨35, _⟩ => ⟨S4096x200x64, .f32⟩
  | .hbm, ⟨36, _⟩ => ⟨S4096x200x64, .i1⟩
  | .hbm, ⟨37, _⟩ => ⟨S_, .f32⟩
  | .hbm, ⟨38, _⟩ => ⟨S4096x200x64, .f32⟩
  | .hbm, ⟨39, _⟩ => ⟨S4096x200x64, .f32⟩
  | .hbm, ⟨40, _⟩ => ⟨S4096x200x64, .f32⟩
  | _, _ => ⟨S4096x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_v14 : Ref sig .tc := ⟨.hbm, 36, rfl⟩
abbrev main_call1_cst : Ref sig .tc := ⟨.hbm, 37, rfl⟩
abbrev main_call1_v15 : Ref sig .tc := ⟨.hbm, 38, rfl⟩
abbrev main_v9 : Ref sig .tc := ⟨.hbm, 39, rfl⟩
abbrev main_v10 : Ref sig .tc := ⟨.hbm, 40, rfl⟩

abbrev nD : Nat := 1
abbrev τ : Topo := Topo.v7x

variable {F : FTy → Type} [FloatOps F]

class Facts₀ : Prop where
  reducesTo_S4096x200x64_S4096x200_d2 : S4096x200x64.ReducesTo [2] S4096x200
  h_S_ : 0 < S_.numel
  bcast_S_S4096x200 : S_.BroadcastsInDim S4096x200 (![] : Fin 0 → Fin S4096x200.rank)
  bcast_S_S200 : S_.BroadcastsInDim S200 (![] : Fin 0 → Fin S200.rank)
  bcast_S200_S1x200_1 : S200.BroadcastsInDim S1x200 (![1] : Fin 1 → Fin S1x200.rank)
  bcast_S1x200_S4096x200_0_1 : S1x200.BroadcastsInDim S4096x200 (![0, 1] : Fin 2 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  bcast_S4096x200_S4096x200x64_0_1 : S4096x200.BroadcastsInDim S4096x200x64 (![0, 1] : Fin 2 → Fin S4096x200x64.rank)
  bcast_S_S4096x200x64 : S_.BroadcastsInDim S4096x200x64 (![] : Fin 0 → Fin S4096x200x64.rank)
  gather_S201x64_S4096x200x1_S4096x200x64_2_0_n_n_0_2_164_wf : GatherDims.WF S201x64 S4096x200x1 S4096x200x64 [2] [0] [] [0] [] 2 ![1, 64]

variable [Facts₀]

def gather_S201x64_S4096x200x1_S4096x200x64_2_0_n_n_0_2_164 : GatherDims S201x64 S4096x200x1 S4096x200x64 where
  offsetDims := [2]
  collapsedSliceDims := [0]
  operandBatchingDims := []
  startIndicesBatchingDims := []
  startIndexMap := [0]
  indexVectorDim := 2
  sliceSizes := ![1, 64]
  wf := gather_S201x64_S4096x200x1_S4096x200x64_2_0_n_n_0_2_164_wf

class Facts : Prop extends Facts₀ where

variable [Facts]
-- ==== Proof.BodyValue.lean ====
/-
  The kernel body's two stored values, read at an index.

  A block of the paired activations is `v0 : [128, 100, 128]`: row `(p, q)` holds position `2q` in lanes
  `0..63` and position `2q + 1` in lanes `64..127`. The paired table block is `v2 : [100, 128]`, row `q`
  holding the embeddings of positions `2q` and `2q + 1` side by side. For each half (lane offset `0` or `64`)
  the body stores

      v0[p, q, o + d] + keep(Σ_e v0[p, q, o + e]) · v2[q, o + d],     keep σ = 1 if σ ≠ 0, else 0:

  the lane sum is a plain sum on the extended reals, the comparison with zero gives a bit, widening it and
  converting it to a float gives `0` or `1`.
-/
import proofs.«142220_g29480655520053_cont_9to1_1343_8_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx

/-- Lane `o + d` of a 128-wide row: feature `d` of the half that starts at lane `o`. -/
def lane (o : Nat) (ho : o + 64 ≤ 128) (d : Fin 64) : Fin 128 := ⟨o + d.val, by omega⟩

/-- The keep flag of a row sum: `1` off the padding positions, `0` on them. -/
def keep (σ : EReal) : EReal := if σ ≠ 0 then 1 else 0

/-- A 64-lane slice of a block of activations, read at an index. -/
theorem sliceX (o : Nat) (ho : o + 64 ≤ 128) (v : FVec Ideal S128x100x128 .f32)
    (h : S128x100x128.Slices ![0, 0, o] S128x100x64) (p : Fin 128) (q : Fin 100) (d : Fin 64) :
    extractStridedSlice S128x100x64 ![0, 0, o] v h (ix3 p q d) = v (ix3 p q (lane o ho d)) := by
  refine extractStridedSlice_apply _ v h (ix3 p q d) (ix3 p q (lane o ho d)) fun a => ?_
  match a with
  | ⟨0, _⟩ => show p.val = 0 + p.val; omega
  | ⟨1, _⟩ => show q.val = 0 + q.val; omega
  | ⟨2, _⟩ => rfl

/-- A 64-lane slice of the paired table block, read at an index. -/
theorem sliceT (o : Nat) (ho : o + 64 ≤ 128) (v : FVec Ideal S100x128 .f32)
    (h : S100x128.Slices ![0, o] S100x64) (q : Fin 100) (d : Fin 64) :
    extractStridedSlice S100x64 ![0, o] v h (ix2 q d) = v (ix2 q (lane o ho d)) := by
  refine extractStridedSlice_apply _ v h (ix2 q d) (ix2 q (lane o ho d)) fun a => ?_
  match a with
  | ⟨0, _⟩ => show q.val = 0 + q.val; omega
  | ⟨1, _⟩ => rfl

/-- The lane sum of a half block, at row `(p, q)`: the sum of its 64 features. -/
theorem laneSum (src : FVec Ideal S128x100x64 .f32) (h : S128x100x64.Reduces [2] S128x100)
    (hφ : FKind.Formats .f32) (hacc : (0x00000000#32 : BitVec 32) = FKind.add.neutral .f32 hφ) (p : Fin 128) (q : Fin 100) :
    multiReduction .add [2] S128x100 src 0x00000000#32 h hφ hacc (ix2 p q) = ∑ e : Fin 64, src (ix3 p q e) := by
  refine (Ideal.multiReduction_add_single src 0x00000000#32 h hφ hacc (ix2 p q)).trans ?_
  refine Finset.sum_congr rfl fun e _ => congrArg src ?_
  funext a
  apply Fin.ext
  match a with
  | ⟨0, _⟩ => rfl
  | ⟨1, _⟩ => rfl
  | ⟨2, _⟩ => rfl

/-- Comparing a sum with zero, widening the bit and converting it: the keep flag. -/
theorem keepFlag (σ : EReal) :
    FloatOps.sitofp (F := Ideal) .f32 ((FloatOps.cmpf (F := Ideal) (φ := .f32) .one σ (Scalar.ofBits .f32 0x00000000#32)).setWidth 32) = keep σ := by
  show (((BitVec.setWidth 32 (Ideal.cmp .one σ (Ideal.ofBits .f32 0x00000000#32))).toInt : ℝ) : EReal) = _
  rw [Ideal.ofBits_zero_f32]
  unfold Ideal.cmp keep
  by_cases h : σ = 0
  · simp [h]
  · simp [h]

/-- The column of keep flags broadcast along the lanes, read at an index. -/
theorem bcastCol (k : FVec Ideal S128x100x1 .f32) (h : S128x100x1.Broadcasts S128x100x64) (p : Fin 128) (q : Fin 100) (d : Fin 64) :
    broadcastTo S128x100x64 k h (ix3 p q d) = k (ix3 p q (0 : Fin 1)) := by
  refine broadcastTo_apply k h (ix3 p q d) (ix3 p q (0 : Fin 1)) fun a => ?_
  match a with
  | ⟨0, _⟩ => rfl
  | ⟨1, _⟩ => rfl
  | ⟨2, _⟩ => rfl

/-- The table rows broadcast along the batch, read at an index. -/
theorem bcastRow (r : FVec Ideal S1x100x64 .f32) (h : S1x100x64.Broadcasts S128x100x64) (p : Fin 128) (q : Fin 100) (d : Fin 64) :
    broadcastTo S128x100x64 r h (ix3 p q d) = r (ix3 (0 : Fin 1) q d) := by
  refine broadcastTo_apply r h (ix3 p q d) (ix3 (0 : Fin 1) q d) fun a => ?_
  match a with
  | ⟨0, _⟩ => rfl
  | ⟨1, _⟩ => rfl
  | ⟨2, _⟩ => rfl

/-- The row sums as a column `[128, 100, 1]`, read at an index. -/
theorem castCol (σ : FVec Ideal S128x100 .f32) (h : S128x100.ShapeCasts S128x100x1) (p : Fin 128) (q : Fin 100) :
    shapeCast S128x100x1 σ h (ix3 p q (0 : Fin 1)) = σ (ix2 p q) := by
  refine shapeCast_apply σ h (ix3 p q (0 : Fin 1)) (ix2 p q) ?_
  rw [Shape.rowMajor_val_two, Shape.rowMajor_val_three]
  show p.val * 100 + q.val = (p.val * 100 + q.val) * 1 + 0
  omega

/-- The table half with a leading unit axis `[1, 100, 64]`, read at an index. -/
theorem castRow (r : FVec Ideal S100x64 .f32) (h : S100x64.ShapeCasts S1x100x64) (q : Fin 100) (d : Fin 64) :
    shapeCast S1x100x64 r h (ix3 (0 : Fin 1) q d) = r (ix2 q d) := by
  refine shapeCast_apply r h (ix3 (0 : Fin 1) q d) (ix2 q d) ?_
  rw [Shape.rowMajor_val_two, Shape.rowMajor_val_three]
  show q.val * 64 + d.val = (0 * 100 + q.val) * 64 + d.val
  omega

/-- THE FIRST HALF's stored value at `(p, q, d)`. -/
theorem pay3_apply (v0 : Vec Ideal S128x100x128 .f32) (v2 : Vec Ideal S100x128 .f32) (p : Fin 128) (q : Fin 100) (d : Fin 64) :
    k0_pay3 v0 v2 (ix3 p q d)
      = v0 (ix3 p q (lane 0 (by omega) d)) + keep (∑ e : Fin 64, v0 (ix3 p q (lane 0 (by omega) e))) * v2 (ix2 q (lane 0 (by omega) d)) := by
  unfold k0_pay3 k0_pay1 k0_pay2
  dsimp only
  rw [shapeCast_self, shapeCast_self]
  show _ + _ * _ = _
  refine congrArg₂ (· + ·) (sliceX 0 (by omega) v0 _ p q d) (congrArg₂ (· * ·) ?_ ?_)
  · refine (bcastCol _ _ p q d).trans ?_
    show FloatOps.sitofp (F := Ideal) .f32 ((FloatOps.cmpf (F := Ideal) (φ := .f32) .one (shapeCast S128x100x1 _ _ (ix3 p q (0 : Fin 1))) (Scalar.ofBits .f32 0x00000000#32)).setWidth 32) = _
    rw [castCol, keepFlag]
    refine congrArg keep ((laneSum _ _ _ _ p q).trans ?_)
    exact Finset.sum_congr rfl fun e _ => sliceX 0 (by omega) v0 _ p q e
  · refine (bcastRow _ _ p q d).trans ((castRow _ _ q d).trans ?_)
    exact sliceT 0 (by omega) v2 _ q d

/-- THE SECOND HALF's stored value at `(p, q, d)`. -/
theorem pay4_apply (v0 : Vec Ideal S128x100x128 .f32) (v2 : Vec Ideal S100x128 .f32) (p : Fin 128) (q : Fin 100) (d : Fin 64) :
    k0_pay4 v0 v2 (ix3 p q d)
      = v0 (ix3 p q (lane 64 (by omega) d)) + keep (∑ e : Fin 64, v0 (ix3 p q (lane 64 (by omega) e))) * v2 (ix2 q (lane 64 (by omega) d)) := by
  unfold k0_pay4 k0_pay1 k0_pay2
  dsimp only
  rw [shapeCast_self, shapeCast_self]
  show _ + _ * _ = _
  refine congrArg₂ (· + ·) (sliceX 64 (by omega) v0 _ p q d) (congrArg₂ (· * ·) ?_ ?_)
  · refine (bcastCol _ _ p q d).trans ?_
    show FloatOps.sitofp (F := Ideal) .f32 ((FloatOps.cmpf (F := Ideal) (φ := .f32) .one (shapeCast S128x100x1 _ _ (ix3 p q (0 : Fin 1))) (Scalar.ofBits .f32 0x00000000#32)).setWidth 32) = _
    rw [castCol, keepFlag]
    refine congrArg keep ((laneSum _ _ _ _ p q).trans ?_)
    exact Finset.sum_congr rfl fun e _ => sliceX 64 (by omega) v0 _ p q e
  · refine (bcastRow _ _ p q d).trans ((castRow _ _ q d).trans ?_)
    exact sliceT 64 (by omega) v2 _ q d

end Cert.KernelIdeal.BodyValue

end
-- ==== Proof.Spec.lean ====
/-
  The function both programs compute, index by index, on the extended reals.

  For an activation array `x : [4096, 200, 64]` and a positional table `tbl : [201, 64]`:
  position `(b, s)` is PADDING when its 64 features sum to exactly zero; a padding position is left as it is,
  and every other position `s` has row `s + 1` of the table added to it,

      result[b, s, d] = x[b, s, d] + (if Σ_e x[b, s, e] = 0 then 0 else tbl[s + 1, d]).

  One side multiplies row `s + 1` by a 0/1 keep flag, the other looks row `0` or row `s + 1` up; the two
  scalar laws that turn each into the conditional above are proved here, over plain extended reals.
-/
import Idealize.ShloMosaic.PureOps.Ideal
import Idealize.ShloMosaic.Lib.ValueIdx

noncomputable section

namespace Cert.PosEmbed

open Idealize.ShloMosaic Idealize.ShloMosaic.ValueIdx

/-- The activations' shape, the table's, and the shape of the activations with two adjacent positions
    paired into one 128-wide row. -/
abbrev SX : Shape := ⟨3, ![4096, 200, 64]⟩
abbrev ST : Shape := ⟨2, ![201, 64]⟩
abbrev SP : Shape := ⟨3, ![4096, 100, 128]⟩

/-- The sum of the 64 features of position `(b, s)`. -/
def rowSum (x : SX.Idx → EReal) (b : Fin 4096) (s : Fin 200) : EReal := ∑ e : Fin 64, x (ix3 b s e)

/-- Row `s + 1` of the table: the embedding of position `s` (row `0` is the padding row). -/
def posRow (s : Fin 200) : Fin 201 := ⟨s.val + 1, by omega⟩

/-- The result at coordinates `(b, s, d)`. -/
def resultAt (x : SX.Idx → EReal) (tbl : ST.Idx → EReal) (b : Fin 4096) (s : Fin 200) (d : Fin 64) : EReal :=
  x (ix3 b s d) + if rowSum x b s = 0 then 0 else tbl (ix2 (posRow s) d)

/-- The result array. -/
def result (x : SX.Idx → EReal) (tbl : ST.Idx → EReal) : SX.Idx → EReal :=
  fun i => resultAt x tbl (i 0) (i 1) (i 2)

theorem result_ix3 (x : SX.Idx → EReal) (tbl : ST.Idx → EReal) (b : Fin 4096) (s : Fin 200) (d : Fin 64) :
    result x tbl (ix3 b s d) = resultAt x tbl b s d := rfl

/-- A 0/1 keep flag times a table entry: the flag is `1` exactly off the padding positions, and
    `0 · t = 0`, `1 · t = t` hold for every extended real `t`, infinite ones included. -/
theorem keep_mul (σ t : EReal) : (if σ ≠ 0 then (1 : EReal) else 0) * t = if σ = 0 then 0 else t := by
  by_cases h : σ = 0
  · simp [h]
  · simp [h]

/-- Looking up row `0` at a padding position and row `s + 1` elsewhere, when row `0` is zero. -/
theorem lookup_eq (σ t0 t : EReal) (h0 : t0 = 0) : (if σ = 0 then t0 else t) = if σ = 0 then 0 else t := by
  rw [h0]

end Cert.PosEmbed

end
-- ==== Proof.Paired.lean ====
/-
  The paired layout, and why computing in it gives the specified result.

  The kernel views the activations `x : [4096, 200, 64]` as `[4096, 100, 128]`: row `q` of batch `b` holds position
  `2q` in lanes `0..63` and position `2q + 1` in lanes `64..127`; rows `1..200` of the table are paired the same
  way into `[100, 128]`. Position `s`, feature `d` therefore sits at row `s / 2`, lane `64·(s mod 2) + d`
  (both reshapes keep the row-major position), and the half of that row starting at lane `64·(s mod 2)` is exactly
  position `s`'s 64 features. So the paired function

      paired[b, q, l] = A0[b, q, l] + keep(Σ_e A0[b, q, h(l) + e]) · A2[q, l],      h(l) = 64·⌊l / 64⌋,

  read back in the original layout is `x[b, s, d] + keep(Σ_e x[b, s, e]) · tbl[s + 1, d]`, which is the specified
  result because `keep σ · t` is `0` when `σ = 0` and `t` otherwise.
-/
import proofs.«142220_g29480655520053_cont_9to1_1343_8_alg».proof.Proof.BodyValue
import proofs.«142220_g29480655520053_cont_9to1_1343_8_alg».proof.Proof.Spec

noncomputable section

namespace Cert.KernelIdeal.BodyValue

open Cert.KernelIdeal Idealize.ShloMosaic Idealize.ShloMosaic.ValueIdx

/-- The first lane of the half of a row that lane `l` lies in. -/
def halfStart (l : Fin 128) : Nat := l.val / 64 * 64

theorem halfStart_le (l : Fin 128) : halfStart l + 64 ≤ 128 := by
  unfold halfStart; have := l.isLt; omega

/-- The paired function at coordinates. -/
def pairedAt (A0 : FVec Ideal S4096x100x128 .f32) (A2 : FVec Ideal S100x128 .f32) (r : Fin 4096) (q : Fin 100) (l : Fin 128) : EReal :=
  A0 (ix3 r q l) + keep (∑ e : Fin 64, A0 (ix3 r q (lane (halfStart l) (halfStart_le l) e))) * A2 (ix2 q l)

/-- The paired function. -/
def paired (A0 : FVec Ideal S4096x100x128 .f32) (A2 : FVec Ideal S100x128 .f32) : FVec Ideal S4096x100x128 .f32 :=
  fun i => pairedAt A0 A2 (i 0) (i 1) (i 2)

/-- The row and the lane of position `s`, feature `d`, in the paired layout. -/
def pairRow (s : Fin 200) : Fin 100 := ⟨s.val / 2, by omega⟩
def pairLane (s : Fin 200) (d : Fin 64) : Fin 128 := ⟨s.val % 2 * 64 + d.val, by omega⟩

/-- The paired activations at the paired index are the activations at `(b, s, d)`. -/
theorem pairX_apply (x : FVec Ideal S4096x200x64 .f32) (h : S4096x200x64.ShapeCasts S4096x100x128) (b : Fin 4096) (s : Fin 200) (d : Fin 64) :
    shapeCast S4096x100x128 x h (ix3 b (pairRow s) (pairLane s d)) = x (ix3 b s d) := by
  refine shapeCast_apply x h _ (ix3 b s d) ?_
  rw [Shape.rowMajor_val_three, Shape.rowMajor_val_three]
  show (b.val * 200 + s.val) * 64 + d.val = (b.val * 100 + s.val / 2) * 128 + (s.val % 2 * 64 + d.val)
  omega

/-- The paired table rows `1..200` at the paired index are row `s + 1` of the table. -/
theorem pairT_apply (tbl : FVec Ideal S201x64 .f32) (hs : S201x64.Slices ![1, 0] S200x64) (hc : S200x64.ShapeCasts S100x128)
    (s : Fin 200) (d : Fin 64) :
    shapeCast S100x128 (extractStridedSlice S200x64 ![1, 0] tbl hs) hc (ix2 (pairRow s) (pairLane s d))
      = tbl (ix2 (Cert.PosEmbed.posRow s) d) := by
  refine (shapeCast_apply _ hc _ (ix2 s d) ?_).trans ?_
  · rw [Shape.rowMajor_val_two, Shape.rowMajor_val_two]
    show s.val * 64 + d.val = s.val / 2 * 128 + (s.val % 2 * 64 + d.val)
    omega
  · refine extractStridedSlice_apply _ tbl hs (ix2 s d) (ix2 (Cert.PosEmbed.posRow s) d) fun a => ?_
    match a with
    | ⟨0, _⟩ => show s.val + 1 = 1 + s.val; omega
    | ⟨1, _⟩ => show d.val = 0 + d.val; omega

/-- Reading the paired result back in the original layout. -/
theorem unpair_apply (Y : FVec Ideal S4096x100x128 .f32) (h : S4096x100x128.ShapeCasts S4096x200x64) (b : Fin 4096) (s : Fin 200) (d : Fin 64) :
    shapeCast S4096x200x64 Y h (ix3 b s d) = Y (ix3 b (pairRow s) (pairLane s d)) := by
  refine shapeCast_apply Y h (ix3 b s d) _ ?_
  rw [Shape.rowMajor_val_three, Shape.rowMajor_val_three]
  show (b.val * 100 + s.val / 2) * 128 + (s.val % 2 * 64 + d.val) = (b.val * 200 + s.val) * 64 + d.val
  omega

/-- The half of the paired row that holds position `s` starts at lane `64·(s mod 2)`: its lanes are
    position `s`'s features. -/
theorem half_pairLane (s : Fin 200) (d e : Fin 64) :
    lane (halfStart (pairLane s d)) (halfStart_le _) e = pairLane s e := by
  apply Fin.ext
  show (s.val % 2 * 64 + d.val) / 64 * 64 + e.val = s.val % 2 * 64 + e.val
  have := d.isLt
  omega

/-- THE PAIRED COMPUTATION, read back in the original layout, is the specified result. -/
theorem paired_result (x : FVec Ideal S4096x200x64 .f32) (tbl : FVec Ideal S201x64 .f32)
    (h1 : S4096x200x64.ShapeCasts S4096x100x128) (h2 : S201x64.Slices ![1, 0] S200x64) (h3 : S200x64.ShapeCasts S100x128)
    (h4 : S4096x100x128.ShapeCasts S4096x200x64) :
    shapeCast S4096x200x64 (paired (shapeCast S4096x100x128 x h1) (shapeCast S100x128 (extractStridedSlice S200x64 ![1, 0] tbl h2) h3)) h4
      = Cert.PosEmbed.result x tbl := by
  funext i
  obtain ⟨b, s, d, rfl⟩ : ∃ (b : Fin 4096) (s : Fin 200) (d : Fin 64), i = ix3 b s d := ⟨i 0, i 1, i 2, eq_ix3 i⟩
  refine (unpair_apply _ h4 b s d).trans ?_
  show pairedAt _ _ b (pairRow s) (pairLane s d) = Cert.PosEmbed.resultAt x tbl b s d
  unfold pairedAt Cert.PosEmbed.resultAt Cert.PosEmbed.rowSum
  rw [pairX_apply, pairT_apply]
  simp only [half_pairLane, pairX_apply]
  unfold keep
  rw [Cert.PosEmbed.keep_mul]

end Cert.KernelIdeal.BodyValue

end
-- ==== Proof.BlockValue.lean ====
/-
  What the body leaves in the output block, as ONE function of the two input blocks.

  The body's two stores write lanes `0..63` and lanes `64..127` of every row, so together they tile the block,
  and both are restrictions of one function: at row `(p, q)` and lane `l`, with `h = 64·⌊l / 64⌋` the first lane
  of `l`'s half,

      block[p, q, l] = x0[p, q, l] + keep(Σ_e x0[p, q, h + e]) · x1[q, l].
-/
import proofs.«142220_g29480655520053_cont_9to1_1343_8_alg».proof.Proof.Paired
import proofs.«142220_g29480655520053_cont_9to1_1343_8_alg».proof.Proof.Gen.KernelIdeal.Frame

noncomputable section

namespace Cert.KernelIdeal.BodyValue

open Cert.KernelIdeal Cert.KernelIdeal.Gen Idealize.ShloMosaic Idealize.ShloMosaic.ValueIdx

/-- The block function at coordinates. -/
def blockAt (x0 : Vec Ideal S128x100x128 .f32) (x1 : Vec Ideal S100x128 .f32) (p : Fin 128) (q : Fin 100) (l : Fin 128) : EReal :=
  x0 (ix3 p q l) + keep (∑ e : Fin 64, x0 (ix3 p q (lane (halfStart l) (halfStart_le l) e))) * x1 (ix2 q l)

/-- The block function. -/
def blockFn (x0 : Vec Ideal S128x100x128 .f32) (x1 : Vec Ideal S100x128 .f32) : Vec Ideal S128x100x128 .f32 :=
  fun y => blockAt x0 x1 (y 0) (y 1) (y 2)

theorem hz3 : (![0, 0, 0] : Fin 3 → Nat) = fun _ => 0 := funext fun a => by fin_cases a <;> rfl
theorem hz2 : (![0, 0] : Fin 2 → Nat) = fun _ => 0 := funext fun a => by fin_cases a <;> rfl

/-- Each store's value is the block function at the index its rectangle embeds. -/
theorem piece_eq (o : Nat) (ho : o + 64 ≤ 128) (ho' : o = 0 ∨ o = 64) (x0 : Vec Ideal S128x100x128 .f32) (x1 : Vec Ideal S100x128 .f32)
    (p : Fin 128) (q : Fin 100) (d : Fin 64) :
    x0 (ix3 p q (lane o ho d)) + keep (∑ e : Fin 64, x0 (ix3 p q (lane o ho e))) * x1 (ix2 q (lane o ho d))
      = blockAt x0 x1 p q (lane o ho d) := by
  unfold blockAt
  have hl : ∀ e : Fin 64, lane (halfStart (lane o ho d)) (halfStart_le _) e = lane o ho e := fun e => Fin.ext (by
    show (o + d.val) / 64 * 64 + e.val = o + e.val
    have := d.isLt
    rcases ho' with rfl | rfl <;> omega)
  simp only [hl]

/-- THE OUTPUT BLOCK after the body is the block function of the input blocks. -/
theorem out_eq (x0 : Vec Ideal S128x100x128 .f32) (x1 : Vec Ideal S100x128 .f32) : out0_2 x0 x1 = blockFn x0 x1 := by
  funext y
  unfold out0_2
  refine View.canon_apply_of_pieces (blockFn x0 x1) _ ?_ y (cover0_2 _ _ y)
  intro pc hpc
  simp only [List.mem_cons, List.mem_nil_iff, or_false] at hpc
  rcases hpc with rfl | rfl
  · intro x
    obtain ⟨p, q, d, rfl⟩ : ∃ (p : Fin 128) (q : Fin 100) (d : Fin 64), x = ix3 p q d := ⟨x 0, x 1, x 2, eq_ix3 x⟩
    show k0_pay4 (View.ld x0 r0_0) (View.ld x1 r0_1) (ix3 p q d) = _
    rw [View.ld_unit_zero hz3, View.ld_unit_zero hz2]
    refine (pay4_apply x0 x1 p q d).trans ?_
    have he : r0_3.emb (ix3 p q d) = ix3 p q (lane 64 (by omega) d) := by
      funext a; apply Fin.ext
      match a with
      | ⟨0, _⟩ => show 0 + 1 * p.val = p.val; omega
      | ⟨1, _⟩ => show 0 + 1 * q.val = q.val; omega
      | ⟨2, _⟩ => show 64 + 1 * d.val = 64 + d.val; omega
    rw [he]
    exact piece_eq 64 (by omega) (Or.inr rfl) x0 x1 p q d
  · intro x
    obtain ⟨p, q, d, rfl⟩ : ∃ (p : Fin 128) (q : Fin 100) (d : Fin 64), x = ix3 p q d := ⟨x 0, x 1, x 2, eq_ix3 x⟩
    show k0_pay3 (View.ld x0 r0_0) (View.ld x1 r0_1) (ix3 p q d) = _
    rw [View.ld_unit_zero hz3, View.ld_unit_zero hz2]
    refine (pay3_apply x0 x1 p q d).trans ?_
    have he : r0_2.emb (ix3 p q d) = ix3 p q (lane 0 (by omega) d) := by
      funext a; apply Fin.ext
      match a with
      | ⟨0, _⟩ => show 0 + 1 * p.val = p.val; omega
      | ⟨1, _⟩ => show 0 + 1 * q.val = q.val; omega
      | ⟨2, _⟩ => show 0 + 1 * d.val = 0 + d.val; omega
    rw [he]
    exact piece_eq 0 (by omega) (Or.inl rfl) x0 x1 p q d

end Cert.KernelIdeal.BodyValue

end
-- ==== Proof.ArrayValue.lean ====
/-
  From blocks to the whole arrays: what the kernel's run leaves in its result.

  The region finds the paired activations `A0 = reshape x` and the paired table `A2 = reshape (rows 1..200 of tbl)`
  (the host lines before it). Grid point `t` of 32 stages rows `128 t .. 128 t + 127` of `A0` (all of `A2`),
  and writes back the block function of them, which is the block of `paired A0 A2` at the same rows; the 32 blocks
  tile the batch axis, so the array ends at `paired A0 A2`. The one host line after the region reshapes it back.
-/
import proofs.«142220_g29480655520053_cont_9to1_1343_8_alg».proof.Proof.BlockValue
import Idealize.ShloMosaic.Lib.StableHlo.Run

noncomputable section

namespace Cert.KernelIdeal.ArrayValue

open Cert.KernelIdeal Cert.KernelIdeal.Gen Cert.KernelIdeal.BodyValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays as the region finds them -/

/-- The paired activations are the reshape of the argument. -/
theorem entry_v0 (c : Dev nD) :
    (V m c main_v0 : S4096x100x128.Idx → EReal)
      = shapeCast S4096x100x128 (m ((c : Thread nD τ).loc main_arg0)) shapeCasts_S4096x200x64_S4096x100x128 := by
  show StableHlo.after hostOps0 (fun b => m (c, b)) (Proc.devRef .tc main_v0) = _
  after_results
  rfl

/-- The paired table is the reshape of rows `1..200` of the argument. -/
theorem entry_v2 (c : Dev nD) :
    (V m c main_v2 : S100x128.Idx → EReal)
      = shapeCast S100x128 (extractStridedSlice S200x64 ![1, 0] (m ((c : Thread nD τ).loc main_arg1)) slices_S201x64_S200x64_1_0)
          shapeCasts_S200x64_S100x128 := by
  show StableHlo.after hostOps0 (fun b => m (c, b)) (Proc.devRef .tc main_v2) = _
  after_results
  rfl

/-! ## What a grid point writes back -/

/-- The printed index maps over the 32 points: the activations' and the result's block index is the point on the
    batch axis and zero elsewhere; the table's is zero. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The block function of a block of rows of `A0` (and all of `A2`) is the paired function at those rows. -/
theorem block_paired (A0 : FVec Ideal S4096x100x128 .f32) (A2 : FVec Ideal S100x128 .f32)
    (x0 : Vec Ideal S128x100x128 .f32) (x1 : Vec Ideal S100x128 .f32) (p : Fin 128) (q : Fin 100) (l : Fin 128)
    (r : Fin 4096) (q' : Fin 100) (l' : Fin 128) (hq : q' = q) (hl : l' = l)
    (h0 : ∀ l'' : Fin 128, x0 (ix3 p q l'') = A0 (ix3 r q l'')) (h1 : x1 (ix2 q l) = A2 (ix2 q l)) :
    blockAt x0 x1 p q l = pairedAt A0 A2 r q' l' := by
  subst hq hl
  unfold blockAt pairedAt
  rw [h1, h0]
  simp only [h0]

set_option maxHeartbeats 60000 in
/-- WHAT POINT `t` WRITES BACK is block `t` of the paired function of the arrays as the region finds them. -/
theorem flushed_eq (c : Dev nD) (t : Fin cfg0.N) :
    (dats m 0 c).flushed 2 t = ((cfg0.win 2).blk t).view.read (Elt Ideal) (paired (V m c main_v0) (V m c main_v2)) := by
  show (cfg0.win 2).cut (grid0.coords t) ((dats m 0 c).after 2 t) = _
  rw [after0_2, out_eq]
  obtain ⟨e0, e1, e2, e3, e4, e5, e6, e7⟩ := idx_facts t
  funext j
  have hj0 : (j 0).val < 128 := (j 0).isLt
  have hj1 : (j 1).val < 100 := (j 1).isLt
  have hj2 : (j 2).val < 128 := (j 2).isLt
  show blockAt (iblk m c 0 t) (iblk m c 1 t) (j 0) (j 1) (j 2)
    = pairedAt (V m c main_v0) (V m c main_v2) ((((cfg0.win 2).blk t).view.emb j) 0) ((((cfg0.win 2).blk t).view.emb j) 1) ((((cfg0.win 2).blk t).view.emb j) 2)
  refine block_paired _ _ _ _ (j 0) (j 1) (j 2) _ _ _ ?_ ?_ ?_ ?_
  · apply Fin.ext
    show win0_2.index t (1 : Fin 3) * 100 + 1 * (j 1).val = (j 1).val
    omega
  · apply Fin.ext
    show win0_2.index t (2 : Fin 3) * 128 + 1 * (j 2).val = (j 2).val
    omega
  · intro l''
    show V m c main_v0 (((cfg0.win 0).blk t).view.emb (ix3 (j 0) (j 1) l''))
      = V m c main_v0 (ix3 ((((cfg0.win 2).blk t).view.emb j) 0) (j 1) l'')
    refine congrArg _ ?_
    funext a
    apply Fin.ext
    match a with
    | ⟨0, _⟩ => show win0_0.index t (0 : Fin 3) * 128 + 1 * (j 0).val = win0_2.index t (0 : Fin 3) * 128 + 1 * (j 0).val; omega
    | ⟨1, _⟩ => show win0_0.index t (1 : Fin 3) * 100 + 1 * (j 1).val = (j 1).val; omega
    | ⟨2, _⟩ => show win0_0.index t (2 : Fin 3) * 128 + 1 * l''.val = l''.val; omega
  · show V m c main_v2 (((cfg0.win 1).blk t).view.emb (ix2 (j 1) (j 2))) = V m c main_v2 (ix2 (j 1) (j 2))
    refine congrArg _ ?_
    funext a
    apply Fin.ext
    match a with
    | ⟨0, _⟩ => show win0_1.index t (0 : Fin 2) * 100 + 1 * (j 1).val = (j 1).val; omega
    | ⟨1, _⟩ => show win0_1.index t (1 : Fin 2) * 128 + 1 * (j 2).val = (j 2).val; omega

/-! ## The 32 blocks tile the array -/

/-- An index of the array is in point `t`'s block iff each coordinate is in the block's range on its axis. -/
theorem mem_blk (t : Fin cfg0.N) (i : S4096x100x128.Idx) :
    i ∈ ((cfg0.win 2).blk t).view.set ↔ ∀ a : Fin 3, win0_2.index t a * S128x100x128.size a ≤ (i a).val
      ∧ (i a).val < win0_2.index t a * S128x100x128.size a + S128x100x128.size a := by
  show i ∈ ((View.whole main_v3).slice (win0_2.rect t)).set ↔ _
  rw [View.set_slice_whole, Rect.mem_set_unit]
  exact Iff.rfl

/-- Batch row `r` lies in the block of point `r / 128`. -/
theorem cover (i : S4096x100x128.Idx) : ∃ t : Fin cfg0.N, (cfg0.win 2).flush t = true ∧ i ∈ ((cfg0.win 2).blk t).view.set := by
  have hi0 : (i 0).val < 4096 := (i 0).isLt
  have hi1 : (i 1).val < 100 := (i 1).isLt
  have hi2 : (i 2).val < 128 := (i 2).isLt
  have hN : cfg0.N = 32 := N_0
  have ht : (i 0).val / 128 < cfg0.N := by rw [hN]; omega
  refine ⟨⟨(i 0).val / 128, ht⟩, flush0_2 _, ?_⟩
  rw [mem_blk]
  obtain ⟨-, -, -, -, -, e5, e6, e7⟩ := idx_facts ⟨(i 0).val / 128, ht⟩
  have e5' : win0_2.index ⟨(i 0).val / 128, ht⟩ (0 : Fin 3) = (i 0).val / 128 := e5
  intro a
  match a with
  | ⟨0, _⟩ =>
    show win0_2.index ⟨(i 0).val / 128, ht⟩ (0 : Fin 3) * 128 ≤ (i 0).val ∧ (i 0).val < win0_2.index ⟨(i 0).val / 128, ht⟩ (0 : Fin 3) * 128 + 128
    omega
  | ⟨1, _⟩ =>
    show win0_2.index ⟨(i 0).val / 128, ht⟩ (1 : Fin 3) * 100 ≤ (i 1).val ∧ (i 1).val < win0_2.index ⟨(i 0).val / 128, ht⟩ (1 : Fin 3) * 100 + 100
    omega
  | ⟨2, _⟩ =>
    show win0_2.index ⟨(i 0).val / 128, ht⟩ (2 : Fin 3) * 128 ≤ (i 2).val ∧ (i 2).val < win0_2.index ⟨(i 0).val / 128, ht⟩ (2 : Fin 3) * 128 + 128
    omega

/-- THE RESULT ARRAY of the region after the run: the paired function of the arrays as the region finds them. -/
theorem final (c : Dev nD) : (dats m 0 c).arrAt 2 cfg0.N = paired (V m c main_v0) (V m c main_v2) :=
  (dats m 0 c).arrAt_eq_of_cover 2 _ (fun t _ => flushed_eq m c t) cover

/-! ## The host line after the region, and the run -/

/-- @main's result: the region's array reshaped back to the activations' shape. -/
theorem tail_eq (c : Dev nD) :
    Pipeline.afterTail₀ cfgs (dats m) 0 (V0 m) [hostOps1] c main_v4
      = shapeCast S4096x200x64 ((dats m 0 c).arrAt 2 cfg0.N) shapeCasts_S4096x100x128_S4096x200x64 := by
  unfold Pipeline.afterTail₀
  show StableHlo.after hostOps1 _ (Proc.devRef .tc main_v4) = _
  after_results
  have hw := Pipeline.withArrays_arr spec0 launch0.win.arr_inj c (V0 m c) (fun w => (dats m 0 c).arrAt w cfg0.N) 2
  funext i
  show shapeCast S4096x200x64 (Pipeline.withArrays spec0 c (V0 m c) (fun w => (dats m 0 c).arrAt w cfg0.N)
      (Proc.devRef .tc (Pipeline.arrRef spec0 2))) shapeCasts_S4096x100x128_S4096x200x64 i = _
  rw [hw]

/-- @main's result is the specified result of the two arguments. -/
theorem value_eq (c : Dev nD) :
    Pipeline.afterTail₀ cfgs (dats m) 0 (V0 m) [hostOps1] c main_v4
      = Cert.PosEmbed.result (m ((c : Thread nD τ).loc main_arg0)) (m ((c : Thread nD τ).loc main_arg1)) := by
  rw [tail_eq, final, entry_v0, entry_v2]
  exact paired_result _ _ _ _ _ _

/-- THE KERNEL'S RUN, read: every weakly fair execution terminates with @main's result at the specified result of
    the argument arrays, and the arguments unchanged. -/
theorem run : θ_run defs (onTc (τ := τ) (main (F := Ideal))) ⟨m, fun _ => 0, ρ⟩ fun r => ∀ c : Dev nD,
      r.2.mem ((c : Thread nD τ).loc main_v4)
        = Cert.PosEmbed.result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v4 (Pipeline.mem_restRefs_of main_v4 (by decide) (by decide))).trans (value_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.ArrayValue

end
-- ==== Proof.PreRow0.lean ====
/-
  What the precondition gives the value proof: row 0 of the table is zero.

  The precondition is the conjunction of three `all`s: every activation finite, every table entry finite, and every
  entry of row 0 of the table equal to zero. Only the third is used: its `all` is an and-reduction of the bits
  `tbl[0, d] = 0` into one bit, and that bit is one only if every one of them is.
-/
import proofs.«142220_g29480655520053_cont_9to1_1343_8_alg».proof.Pre_finite_inputs
import proofs.«142220_g29480655520053_cont_9to1_1343_8_alg».proof.Proof.Gen.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.PreDecode

open Cert.Pre_finite_inputs Idealize.ShloMosaic Idealize.ShloMosaic.ValueIdx

instance : Subsingleton S_.Idx := ⟨fun a b => funext fun d => d.elim0⟩

/-- If the precondition's bit is one, every entry of row 0 of the table is zero. -/
theorem row0_zero (x : FVec Ideal S4096x200x64 .f32) (tbl : FVec Ideal S201x64 .f32)
    (h : Cert.Pre_finite_inputs.fn (F := Ideal) x tbl = fun _ => 1#1) (d : Fin 64) :
    tbl (ix2 (0 : Fin 201) d) = 0 := by
  have h1 := congrFun h ix0
  dsimp only [Cert.Pre_finite_inputs.fn] at h1
  have h2 := (IntOp.andi_eq_one.mp h1).2
  have h3 := Host.reduce_andi_all _ _ _ _ ix0 h2 (ix2 (0 : Fin 1) d)
  have h4 : Ideal.cmp .oeq (extractStridedSlice S1x64 ![0, 0] tbl _ (ix2 (0 : Fin 1) d)) (Ideal.ofBits .f32 0x00000000#32) = 1#1 := h3
  rw [extractStridedSlice_apply ![0, 0] tbl _ (ix2 (0 : Fin 1) d) (ix2 (0 : Fin 201) d) (fun a => by
      match a with
      | ⟨0, _⟩ => rfl
      | ⟨1, _⟩ => show d.val = 0 + d.val; omega),
    Ideal.ofBits_zero_f32] at h4
  unfold Ideal.cmp at h4
  by_contra hne
  simp [hne] at h4

end Cert.PreDecode

end
-- ==== Proof.RefTerm.lean ====
/-
  The reference function's value as ONE pure term of its two arguments.

  For activations `x : [4096, 200, 64]` and a table `tbl : [201, 64]` the reference computes, in order:
  the sum of each position's 64 features; the mask of the positions whose sum equals zero; the
  positions `1 … 200` broadcast over the batch; the masked positions (zero under the mask, the position
  elsewhere); the row lookup of the table at those index words in "fill" mode (a negative word wrapped by
  the table's height, the row gathered, the result kept where the word lies in `[0, 200]` and the
  not-a-number splat elsewhere); and the sum of the activations and the looked-up rows.

  Each stage is a definition over the library's pure operations, applied and never opened; `refTerm` is
  their composition. What the term EQUALS index by index is proved elsewhere; here it is only named.
-/
import proofs.«142220_g29480655520053_cont_9to1_1343_8_alg».proof.Proof.Gen.ReferenceIdeal

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The sum of each position's 64 features, from the zero word. -/
def rowSums (x : FVec F S4096x200x64 .f32) : FVec F S4096x200 .f32 :=
  Host.reduceAdd x (constant S_ .f32 0x00000000#32) reducesTo_S4096x200x64_S4096x200_d2 h_S_

/-- The mask of the padding positions: where the feature sum compares equal to the zero splat. -/
def padMask (x : FVec F S4096x200x64 .f32) : IVec S4096x200 1 :=
  cmpf .oeq (rowSums x) (broadcastInDim S4096x200 ![] bcast_S_S4096x200 (constant (F := F) S_ .f32 0x00000000#32))

/-- The positions `1 … 200` along the sequence axis: the splat of one plus the iota. -/
def posLine : IVec S200 32 :=
  addi (broadcastInDim S200 ![] bcast_S_S200 (constantI S_ 32 1#32)) (iotaInDim S200 32 0)

/-- The positions broadcast over the batch. -/
def positions : IVec S4096x200 32 :=
  broadcastInDim S4096x200 ![0, 1] bcast_S1x200_S4096x200_0_1 (broadcastInDim S1x200 ![1] bcast_S200_S1x200_1 posLine)

/-- The masked positions: the zero word under the mask, the position elsewhere. -/
def maskedPos (x : FVec F S4096x200x64 .f32) : IVec S4096x200 32 :=
  select (padMask x) (broadcastInDim S4096x200 ![] bcast_S_S4096x200 (id (constantI S_ 32 0#32))) positions

/-- An index word wrapped: a negative word has the table's height added. -/
def wrapIdx (idx : IVec S4096x200 32) : IVec S4096x200 32 :=
  select (cmpi .slt idx (broadcastInDim S4096x200 ![] bcast_S_S4096x200 (constantI S_ 32 0#32)))
    (addi idx (broadcastInDim S4096x200 ![] bcast_S_S4096x200 (constantI S_ 32 201#32))) idx

/-- The wrapped index words as a column of one-word index vectors. -/
def idxCol (idx : IVec S4096x200 32) : IVec S4096x200x1 32 :=
  broadcastInDim S4096x200x1 ![0, 1] bcast_S4096x200_S4096x200x1_0_1 (wrapIdx idx)

/-- Where the wrapped word lies in `[0, 200]`: both comparisons, and-reduced over the singleton axis. -/
def inRange (idx : IVec S4096x200 32) : IVec S4096x200 1 :=
  Host.reduce IntOp.andi
    (andi (cmpi .sge (idxCol idx) (broadcastInDim S4096x200x1 ![] bcast_S_S4096x200x1 (constantI S_ 32 0#32)))
      (cmpi .sle (idxCol idx)
        (broadcastInDim S4096x200x1 ![0, 1, 2] bcast_S1x1x1_S4096x200x1_0_1_2
          (broadcastInDim S1x1x1 ![2] bcast_S1_S1x1x1_2 (constantI S1 32 200#32)))))
    (constantI S_ 1 1#1) reducesTo_S4096x200x1_S4096x200_d2 h_S_

/-- The rows of the table gathered at the wrapped index words. -/
def gatherRows (tbl : FVec F S201x64 .f32) (idx : IVec S4096x200 32) : FVec F S4096x200x64 .f32 :=
  Host.gather gather_S201x64_S4096x200x1_S4096x200x64_2_0_n_n_0_2_164 tbl (idxCol idx)

/-- The row lookup in "fill" mode: the gathered row where the word is in range, the not-a-number splat elsewhere. -/
def takeRows (tbl : FVec F S201x64 .f32) (idx : IVec S4096x200 32) : FVec F S4096x200x64 .f32 :=
  select (broadcastInDim S4096x200x64 ![0, 1] bcast_S4096x200_S4096x200x64_0_1 (inRange idx)) (gatherRows tbl idx)
    (broadcastInDim S4096x200x64 ![] bcast_S_S4096x200x64 (constant S_ .f32 0x7FC00000#32))

/-- The reference's value: the activations plus the rows looked up at the masked positions. -/
def refTerm (x : FVec F S4096x200x64 .f32) (tbl : FVec F S201x64 .f32) : FVec F S4096x200x64 .f32 :=
  addf x (takeRows tbl (maskedPos x))

end Cert.ReferenceIdeal.RefValue

end
-- ==== Proof.RefOps.lean ====
/-
  The reference function as a straight line: @main is a list of 39 host operations once the three outlined
  functions (the select against a scalar, the plain select, the row lookup — which itself calls the plain
  select) are unfolded at their call sites over the calls' buffers. Every operation touches buffers of the
  one core only, and the program scopes no buffer and no semaphore.
-/
import proofs.«142220_g29480655520053_cont_9to1_1343_8_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: its own twelve up to the masked positions' operands,
    the select against a scalar (the scalar's conversion, its broadcast, the select), the row lookup's
    twenty-three (the plain select it calls among them), and the final sum. -/
abbrev ops : List (HloOp τ sig (Elt F)) :=
  [ nullary main_cst (constant S_ .f32 0x00000000#32),
    binary main_arg0 main_cst main_v0 ((fun x v => Host.reduceAdd x v reducesTo_S4096x200x64_S4096x200_d2 h_S_) : (⟨S4096x200x64, .f32⟩ : BufTy).Contents (Elt F) → (⟨S_, .f32⟩ : BufTy).Contents (Elt F) → (⟨S4096x200, .f32⟩ : BufTy).Contents (Elt F)),
    nullary main_cst_0 (constant S_ .f32 0x00000000#32),
    unary main_cst_0 main_v1 (broadcastInDim S4096x200 ![] bcast_S_S4096x200 : (⟨S_, .f32⟩ : BufTy).Contents (Elt F) → (⟨S4096x200, .f32⟩ : BufTy).Contents (Elt F)),
    binary main_v0 main_v1 main_v2 (cmpf .oeq : (⟨S4096x200, .f32⟩ : BufTy).Contents (Elt F) → (⟨S4096x200, .f32⟩ : BufTy).Contents (Elt F) → (⟨S4096x200, .i1⟩ : BufTy).Contents (Elt F)),
    nullary main_v3 (iotaInDim S200 32 0),
    nullary main_c (constantI S_ 32 1#32),
    unary main_c main_v4 (broadcastInDim S200 ![] bcast_S_S200 : (⟨S_, .i32⟩ : BufTy).Contents (Elt F) → (⟨S200, .i32⟩ : BufTy).Contents (Elt F)),
    binary main_v4 main_v3 main_v5 (addi : (⟨S200, .i32⟩ : BufTy).Contents (Elt F) → (⟨S200, .i32⟩ : BufTy).Contents (Elt F) → (⟨S200, .i32⟩ : BufTy).Contents (Elt F)),
    unary main_v5 main_v6 (broadcastInDim S1x200 ![1] bcast_S200_S1x200_1 : (⟨S200, .i32⟩ : BufTy).Contents (Elt F) → (⟨S1x200, .i32⟩ : BufTy).Contents (Elt F)),
    unary main_v6 main_v7 (broadcastInDim S4096x200 ![0, 1] bcast_S1x200_S4096x200_0_1 : (⟨S1x200, .i32⟩ : BufTy).Contents (Elt F) → (⟨S4096x200, .i32⟩ : BufTy).Contents (Elt F)),
    nullary main_c_1 (constantI S_ 32 0#32),
    TRef.unary (.of main_c_1) main_call0.v0 id,
    TRef.unary main_call0.v0 main_call0.v1 (broadcastInDim S4096x200 ![] bcast_S_S4096x200),
    TRef.ternary (.of main_v2) main_call0.v1 (.of main_v7) main_call0.v2 select,
    TRef.nullary main_call1.c (constantI S_ 32 0#32),
    TRef.unary main_call1.c main_call1.v0 (broadcastInDim S4096x200 ![] bcast_S_S4096x200),
    TRef.binary (.of main_v8) main_call1.v0 main_call1.v1 (cmpi .slt),
    TRef.nullary main_call1.c_0 (constantI S_ 32 201#32),
    TRef.unary main_call1.c_0 main_call1.v2 (broadcastInDim S4096x200 ![] bcast_S_S4096x200),
    TRef.binary (.of main_v8) main_call1.v2 main_call1.v3 addi,
    TRef.ternary main_call1.v1 main_call1.v3 (.of main_v8) main_call1.call0.v0 select,
    TRef.unary main_call1.call0.v0 main_call1.v5 (broadcastInDim S4096x200x1 ![0, 1] bcast_S4096x200_S4096x200x1_0_1),
    TRef.nullary main_call1.c_1 (constantI S1 32 200#32),
    TRef.nullary main_call1.c_2 (constantI S_ 32 0#32),
    TRef.unary main_call1.c_2 main_call1.v6 (broadcastInDim S4096x200x1 ![] bcast_S_S4096x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4096x200x1 ![0, 1, 2] bcast_S1x1x1_S4096x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x200x1_S4096x200_d2 h_S_),
    TRef.binary (.of main_arg1) main_call1.v5 main_call1.v13 (fun x i => Host.gather gather_S201x64_S4096x200x1_S4096x200x64_2_0_n_n_0_2_164 x i),
    TRef.unary main_call1.v12 main_call1.v14 (broadcastInDim S4096x200x64 ![0, 1] bcast_S4096x200_S4096x200x64_0_1),
    TRef.nullary main_call1.cst (constant S_ .f32 0x7FC00000#32),
    TRef.unary main_call1.cst main_call1.v15 (broadcastInDim S4096x200x64 ![] bcast_S_S4096x200x64),
    TRef.ternary main_call1.v14 main_call1.v13 main_call1.v15 main_call1.v16 select,
    binary main_arg0 main_v9 main_v10 (addf : (⟨S4096x200x64, .f32⟩ : BufTy).Contents (Elt F) → (⟨S4096x200x64, .f32⟩ : BufTy).Contents (Elt F) → (⟨S4096x200x64, .f32⟩ : BufTy).Contents (Elt F)) ]

-- thirty-nine binds re-associated: the rewrite under the chain recurses once per statement
set_option maxRecDepth 1024 in
/-- @main is that straight line: the three functions' definitions unfolded at their calls and the records at
    their fields, both sides are one chain of host steps once sequencing is reassociated. -/
theorem main_eq (c : Dev nD) : main (F := F) c = seq ops := by
  simp only [main, fn_where.body, fn_where_0.body, fn_take.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., unary_bufs_sub .., binary_bufs_sub .., unary_bufs_sub .., unary_bufs_sub .., nullary_bufs_sub ..,
    unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub ..⟩

end Cert.ReferenceIdeal.RefValue

end
-- ==== Proof.RefRun.lean ====
/-
  The reference function's run, read back: every weakly fair execution of the straight line of host
  operations terminates with the result buffer at the operations' composed pure term of the two arguments'
  launch contents (`refTerm`), and with the arguments unchanged.
-/
import proofs.«142220_g29480655520053_cont_9to1_1343_8_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.reduceAdd Host.gather in
set_option maxRecDepth 8192 in
set_option maxHeartbeats 1000000 in
/-- The fold at the result buffer is the composed term: each operation's result at its own buffer is its
    function's value and at any other buffer what was there; the typed references' casts are the identity at
    these literal references. The reductions and the gather are kept folded meanwhile: the equation never looks
    inside them. -/
theorem out_eq (V : Valuation τ sig (Elt F)) :
    after ops V (main_v10 : DevRef τ sig) = refTerm (V (main_arg0 : DevRef τ sig)) (V (main_arg1 : DevRef τ sig)) := by
  after_results_simp
  rfl

set_option maxRecDepth 8192 in
theorem arg0_eq (V : Valuation τ sig (Elt F)) :
    after ops V (main_arg0 : DevRef τ sig) = V (main_arg0 : DevRef τ sig) := by
  simp only [after_cons, after_nil]
  rfl

set_option maxRecDepth 8192 in
theorem arg1_eq (V : Valuation τ sig (Elt F)) :
    after ops V (main_arg1 : DevRef τ sig) = V (main_arg1 : DevRef τ sig) := by
  simp only [after_cons, after_nil]
  rfl

/-- On every device, for any float values, from any memory with zero counters: every weakly fair execution of
    @main terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v10).trans (out_eq _), (h c main_arg0).trans (arg0_eq _), (h c main_arg1).trans (arg1_eq _)⟩)
    (run_seq scopedRefs_eq scopedSems_eq defs main (fun _ => ops) main_eq (fun _ => ops_sub) m ρ)

end Cert.ReferenceIdeal.RefValue

end
-- ==== Proof.RefMask.lean ====
/-
  The first half of the reference's term, read index by index at the extended reals.

  At coordinates `(b, s)`: the feature sum of the position is the exact sum over its 64 features; the mask is
  the bit of "that sum equals zero"; the position word is `s + 1`; the masked position is the zero word under
  the mask and `s + 1` elsewhere — the number, as a word, of the table row the position looks up: row `0` at a
  padding position, row `s + 1` elsewhere.
-/
import proofs.«142220_g29480655520053_cont_9to1_1343_8_alg».proof.Proof.Spec
import proofs.«142220_g29480655520053_cont_9to1_1343_8_alg».proof.Proof.RefTerm
import Idealize.ShloMosaic.Lib.IdealHost
import Idealize.ShloMosaic.Lib.Pipeline.Value

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx Cert.PosEmbed

/-! ## The feature sum and the mask -/

/-- The feature sum at `(b, s)` is the exact sum of the position's 64 features. -/
theorem rowSums_apply (x : FVec Ideal S4096x200x64 .f32) (b : Fin 4096) (s : Fin 200) :
    rowSums (F := Ideal) x (ix2 b s) = rowSum x b s := by
  have h : S4096x200x64.Reduces [2] S4096x200 := by decide
  unfold rowSums
  rw [hostReduceAdd_apply, Ideal.hostReduceAdd_single _ h, constant_apply, Ideal.ofBits_zero_f32, zero_add]
  unfold rowSum
  refine Finset.sum_congr rfl fun e _ => congrArg x ?_
  funext c
  match c with
  | ⟨0, _⟩ => rfl
  | ⟨1, _⟩ => rfl
  | ⟨2, _⟩ => rfl

/-- The mask at `(b, s)` is the bit of "the feature sum is zero". -/
theorem padMask_apply (x : FVec Ideal S4096x200x64 .f32) (b : Fin 4096) (s : Fin 200) :
    padMask (F := Ideal) x (ix2 b s) = BitVec.ofBool (decide (rowSum x b s = 0)) := by
  unfold padMask
  rw [cmpf_apply, rowSums_apply, broadcastInDim_scalar_apply, constant_apply, Ideal.ofBits_zero_f32, Ideal.cmpf_def]
  rfl

/-! ## The positions -/

/-- The position word at `s` is `s + 1`. -/
theorem posLine_apply (s : Fin 200) : posLine (ix1 s) = BitVec.ofNat 32 (s.val + 1) := by
  unfold posLine
  show IntOp.addi (broadcastInDim S200 ![] bcast_S_S200 (constantI S_ 32 1#32) (ix1 s)) (iotaInDim S200 32 0 (ix1 s)) = _
  rw [broadcastInDim_scalar_apply, iotaInDim_apply]
  show 1#32 + BitVec.ofNat 32 s.val = _
  rw [Nat.add_comm, BitVec.ofNat_add]

/-- The positions at `(b, s)` are the position word at `s`. -/
theorem positions_apply (b : Fin 4096) (s : Fin 200) : positions (ix2 b s) = BitVec.ofNat 32 (s.val + 1) := by
  unfold positions
  refine (broadcastInDim_apply _ _ _ (ix2 b s) (ix2 (0 : Fin 1) s) (fun a => match a with | ⟨0, _⟩ => rfl | ⟨1, _⟩ => rfl)).trans ?_
  refine (broadcastInDim_apply _ _ _ (ix2 (0 : Fin 1) s) (ix1 s) (fun a => match a with | ⟨0, _⟩ => rfl)).trans ?_
  exact posLine_apply s

/-- The masked position at `(b, s)`: the zero word where the feature sum is zero, `s + 1` elsewhere. -/
theorem maskedPos_apply (x : FVec Ideal S4096x200x64 .f32) (b : Fin 4096) (s : Fin 200) :
    maskedPos (F := Ideal) x (ix2 b s) = if rowSum x b s = 0 then 0#32 else BitVec.ofNat 32 (s.val + 1) := by
  unfold maskedPos
  rw [select_apply, padMask_apply, positions_apply, broadcastInDim_scalar_apply]
  by_cases h : rowSum x b s = 0
  · rw [if_pos h, decide_eq_true h]; exact select_one _ _
  · rw [if_neg h, decide_eq_false h]; exact select_zero _ _

/-! ## The looked-up row -/

/-- The table row position `(b, s)` looks up: row `0` where the feature sum is zero, row `s + 1` elsewhere. -/
def padRow (x : FVec Ideal S4096x200x64 .f32) (b : Fin 4096) (s : Fin 200) : Fin 201 :=
  if rowSum x b s = 0 then 0 else posRow s

/-- The masked position at `(b, s)` is that row's number as a word. -/
theorem maskedPos_row (x : FVec Ideal S4096x200x64 .f32) (b : Fin 4096) (s : Fin 200) :
    maskedPos (F := Ideal) x (ix2 b s) = BitVec.ofNat 32 (padRow x b s).val := by
  rw [maskedPos_apply]
  unfold padRow
  by_cases h : rowSum x b s = 0
  · rw [if_pos h, if_pos h]; rfl
  · rw [if_neg h, if_neg h]; rfl

end Cert.ReferenceIdeal.RefValue

end
-- ==== Proof.RefGather.lean ====
/-
  The reference's row lookup, read at an index.

  The lookup takes an index word per position. When that word is a row number `r` of the table (`0 ≤ r ≤ 200`,
  as a 32-bit word), reading it signed gives `r` back, so: it is not negative and is not wrapped; it lies in
  `[0, 200]`, so the range guard's bit is one and the not-a-number fill is never selected; and the gather, which
  clamps the signed word into `[0, 200]` on the row axis and copies the 64 features of that row, reads `tbl[r, d]`.
-/
import proofs.«142220_g29480655520053_cont_9to1_1343_8_alg».proof.Proof.RefTerm
import Idealize.ShloMosaic.Lib.ValueIdx
import Idealize.ShloMosaic.Lib.Pipeline.Value
import Idealize.ShloMosaic.Lib.Affine
import Idealize.ShloMosaic.PureOps.Reduce

noncomputable section

namespace Cert.ReferenceIdeal.RefValue

open Cert.ReferenceIdeal Cert.ReferenceIdeal.Gen Idealize.ShloMosaic Idealize.ShloMosaic.ValueIdx

/-- A row number of the table, as a 32-bit word, reads back signed as itself. -/
theorem toInt_row (r : Fin 201) : (BitVec.ofNat 32 r.val).toInt = (r.val : Int) := by
  have hr := r.isLt
  rw [BitVec.toInt_eq_toNat_cond, BitVec.toNat_ofNat]
  have hm : r.val % 2 ^ 32 = r.val := Nat.mod_eq_of_lt (by omega)
  rw [hm, if_pos (by omega)]

variable (idx : IVec S4096x200 32) (b : Fin 4096) (s : Fin 200) (r : Fin 201)

/-- A row number is not negative: the wrap leaves it. -/
theorem wrapIdx_apply (hr : idx (ix2 b s) = BitVec.ofNat 32 r.val) : wrapIdx idx (ix2 b s) = BitVec.ofNat 32 r.val := by
  show Scalar.select (IntOp.cmpi .slt (idx (ix2 b s)) 0#32) (IntOp.addi (idx (ix2 b s)) 201#32) (idx (ix2 b s)) = _
  have hn : ¬ IntOp.cmpi .slt (idx (ix2 b s)) 0#32 = 1#1 := fun h => by
    rw [IntOp.cmpi_slt, hr, toInt_row] at h
    have : (0#32 : BitVec 32).toInt = 0 := by decide
    omega
  unfold Scalar.select
  exact (if_neg hn).trans hr

/-- The column of one-word index vectors holds the wrapped word. -/
theorem idxCol_apply : idxCol idx (ix3 b s (0 : Fin 1)) = wrapIdx idx (ix2 b s) := by
  refine broadcastInDim_apply _ _ _ (ix3 b s (0 : Fin 1)) (ix2 b s) fun a => ?_
  match a with
  | ⟨0, _⟩ => rfl
  | ⟨1, _⟩ => rfl

/-- A row number lies in `[0, 200]`: the range guard's bit is one. -/
theorem inRange_apply (hr : idx (ix2 b s) = BitVec.ofNat 32 r.val) : inRange idx (ix2 b s) = 1#1 := by
  unfold inRange
  have hR : S4096x200x1.Reduces [2] S4096x200 := by decide
  rw [Host.reduce_eq_fold_single IntOp.andi _ _ reducesTo_S4096x200x1_S4096x200_d2 hR h_S_ (ix2 b s)]
  show Finset.fold IntOp.andi _ _ (Finset.univ : Finset (Fin 1)) = 1#1
  rw [Finset.univ_unique]
  refine Finset.fold_singleton.trans ?_
  rw [IntOp.andi_eq_one]
  refine ⟨?_, rfl⟩
  have hlift : hR.lift (ix2 b s) (default : Fin 1) = ix3 b s (0 : Fin 1) := by
    funext a
    apply Fin.ext
    match a with
    | ⟨0, _⟩ => rfl
    | ⟨1, _⟩ => rfl
    | ⟨2, _⟩ => rfl
  show IntOp.andi (IntOp.cmpi .sge (idxCol idx (hR.lift (ix2 b s) (default : Fin 1))) 0#32)
    (IntOp.cmpi .sle (idxCol idx (hR.lift (ix2 b s) (default : Fin 1))) 200#32) = 1#1
  rw [hlift, idxCol_apply, wrapIdx_apply idx b s r hr, IntOp.andi_eq_one, IntOp.cmpi_sge, IntOp.cmpi_sle, toInt_row]
  have h0 : (0#32 : BitVec 32).toInt = 0 := by decide
  have h200 : (200#32 : BitVec 32).toInt = 200 := by decide
  have := r.isLt
  omega

/-- The gather at `(b, s, d)`: on the row axis the signed word clamped into `[0, 200]`, which is `r`; on the feature
    axis the result's own coordinate `d`. -/
theorem gatherRows_apply (tbl : FVec Ideal S201x64 .f32) (d : Fin 64) (hr : idx (ix2 b s) = BitVec.ofNat 32 r.val) :
    gatherRows (F := Ideal) tbl idx (ix3 b s d) = tbl (ix2 r d) := by
  unfold gatherRows Host.gather
  refine congrArg tbl ?_
  funext a
  apply Fin.ext
  match a with
  | ⟨0, _⟩ =>
    show gather_S201x64_S4096x200x1_S4096x200x64_2_0_n_n_0_2_164.start (ix3 b s d) (idxCol idx) (0 : Fin 2)
      + gather_S201x64_S4096x200x1_S4096x200x64_2_0_n_n_0_2_164.batchCoord (ix3 b s d) (0 : Fin 2)
      + gather_S201x64_S4096x200x1_S4096x200x64_2_0_n_n_0_2_164.offCoord (ix3 b s d) (0 : Fin 2) = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S201x64_S4096x200x1_S4096x200x64_2_0_n_n_0_2_164.startIndexMap from List.mem_singleton.mpr rfl)]
    have hsi : gather_S201x64_S4096x200x1_S4096x200x64_2_0_n_n_0_2_164.siIdx (ix3 b s d)
        ⟨List.idxOf (0 : Fin 2) gather_S201x64_S4096x200x1_S4096x200x64_2_0_n_n_0_2_164.startIndexMap,
          List.idxOf_lt_length_iff.2 (List.mem_singleton.mpr rfl)⟩ = ix3 b s (0 : Fin 1) := by
      funext c
      refine Fin.ext ?_
      match c with
      | ⟨0, _⟩ => rfl
      | ⟨1, _⟩ => rfl
      | ⟨2, _⟩ => rfl
    rw [hsi, idxCol_apply, wrapIdx_apply idx b s r hr, toInt_row]
    show min (r.val : Int).toNat (201 - 1) = r.val
    have := r.isLt
    omega
  | ⟨1, _⟩ =>
    show gather_S201x64_S4096x200x1_S4096x200x64_2_0_n_n_0_2_164.start (ix3 b s d) (idxCol idx) (1 : Fin 2)
      + gather_S201x64_S4096x200x1_S4096x200x64_2_0_n_n_0_2_164.batchCoord (ix3 b s d) (1 : Fin 2)
      + gather_S201x64_S4096x200x1_S4096x200x64_2_0_n_n_0_2_164.offCoord (ix3 b s d) (1 : Fin 2) = d.val
    rw [GatherDims.batchCoord_eq_zero _ _ _ List.not_mem_nil]
    unfold GatherDims.start
    rw [dif_neg (show (1 : Fin 2) ∉ gather_S201x64_S4096x200x1_S4096x200x64_2_0_n_n_0_2_164.startIndexMap from by decide)]
    simp only [Nat.zero_add]
    unfold GatherDims.offCoord
    rw [dif_pos (show (1 : Fin 2) ∈ gather_S201x64_S4096x200x1_S4096x200x64_2_0_n_n_0_2_164.sKept from by decide)]
    rfl

/-- THE ROW LOOKUP at `(b, s, d)` of an index word that is the row number `r`: `tbl[r, d]`. -/
theorem takeRows_apply (tbl : FVec Ideal S201x64 .f32) (d : Fin 64) (hr : idx (ix2 b s) = BitVec.ofNat 32 r.val) :
    takeRows (F := Ideal) tbl idx (ix3 b s d) = tbl (ix2 r d) := by
  unfold takeRows
  refine (select_apply _ _ _ _).trans ?_
  rw [broadcastInDim_apply _ _ (inRange idx) (ix3 b s d) (ix2 b s) (fun a => by
      match a with
      | ⟨0, _⟩ => rfl
      | ⟨1, _⟩ => rfl),
    inRange_apply idx b s r hr]
  unfold Scalar.select
  exact (if_pos rfl).trans (gatherRows_apply idx b s r tbl d hr)

end Cert.ReferenceIdeal.RefValue

end
-- ==== Proof.RefValue.lean ====
/-
  The reference's composed term, read index by index at the extended reals, is the specification.

  At coordinates `(b, s, d)` the term is the activation plus the row lookup at the masked position. The masked
  position is the number of row `0` at a padding position and of row `s + 1` elsewhere, and the lookup at the
  number of a row of the table is that row's entry. With row `0` of the table zero, the sum is the
  specification's conditional.
-/
import proofs.«142220_g29480655520053_cont_9to1_1343_8_alg».proof.Proof.RefMask
import proofs.«142220_g29480655520053_cont_9to1_1343_8_alg».proof.Proof.RefGather

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.PosEmbed

/-- The reference's composed term is the specification, given that row `0` of the table is zero: at `(b, s, d)` the
    activation plus the table's entry at the looked-up row, which is the zero of row `0` at a padding position and
    row `s + 1`'s elsewhere. -/
theorem refTerm_eq (x : FVec Ideal S4096x200x64 .f32) (tbl : FVec Ideal S201x64 .f32)
    (h0 : ∀ d : Fin 64, tbl (Idealize.ShloMosaic.ValueIdx.ix2 (0 : Fin 201) d) = 0) :
    refTerm (F := Ideal) x tbl = Cert.PosEmbed.result x tbl := by
  funext i
  obtain ⟨b, s, d, rfl⟩ : ∃ (b : Fin 4096) (s : Fin 200) (d : Fin 64), i = ix3 b s d := ⟨i 0, i 1, i 2, eq_ix3 i⟩
  rw [result_ix3]
  unfold refTerm resultAt
  rw [addf_apply, takeRows_apply (maskedPos x) b s (padRow x b s) tbl d (maskedPos_row x b s)]
  congr 1
  unfold padRow
  by_cases h : rowSum x b s = 0
  · rw [if_pos h, if_pos h, h0]
  · rw [if_neg h, if_neg h]

end Cert.ReferenceIdeal.RefValue

end
-- ==== Proof.lean ====
/-
  The kernel adds a positional embedding to activations `x : [4096, 200, 64]`: a position whose 64 features sum
  to exactly zero is padding and is left as it is; every other position `s` has row `s + 1` of the table
  `tbl : [201, 64]` added. On the extended reals both programs compute

      result[b, s, d] = x[b, s, d] + (if Σ_e x[b, s, e] = 0 then 0 else tbl[s + 1, d])        (Proof/Spec.lean).

  The kernel works on the activations viewed as `[4096, 100, 128]` (two positions per 128-lane row), in 32 blocks
  of 128 batch rows; for each half of a row it sums the 64 lanes, turns "sum ≠ 0" into a 0/1 factor, multiplies
  the matching half of the paired table rows by it and adds. Because `0 · t = 0` and `1 · t = t` for every
  extended real `t`, that is the conditional above (Proof/BodyValue.lean: the stored values at an index;
  Proof/BlockValue.lean: the block as one function; Proof/Paired.lean: the paired layout read back;
  Proof/ArrayValue.lean: from blocks to the arrays, and the run).

  The reference looks the row up instead: index `0` at a padding position, `s + 1` elsewhere, so a padding
  position gets row `0` of the table added. The two agree because the precondition says row `0` is zero
  (Proof/PreRow0.lean decodes that; Proof/RefTerm.lean, Proof/RefRun.lean, Proof/RefValue.lean: the reference's
  term, its run, and the term at an index). Neither side needs the inputs to be finite.

  The kernel's idealization rewrote nothing, so `preserves` is trivial; the three frames are the kernels'
  generated frames and the reference's run with its result dropped.
-/
import proofs.«142220_g29480655520053_cont_9to1_1343_8_alg».proof.Defs
import proofs.«142220_g29480655520053_cont_9to1_1343_8_alg».proof.Proof.Gen.Kernel
import proofs.«142220_g29480655520053_cont_9to1_1343_8_alg».proof.Proof.Gen.Kernel.Frame
import proofs.«142220_g29480655520053_cont_9to1_1343_8_alg».proof.Proof.Gen.KernelIdeal
import proofs.«142220_g29480655520053_cont_9to1_1343_8_alg».proof.Proof.Gen.KernelIdeal.Frame
import proofs.«142220_g29480655520053_cont_9to1_1343_8_alg».proof.Proof.Gen.ReferenceIdeal
import proofs.«142220_g29480655520053_cont_9to1_1343_8_alg».proof.Proof.Gen.Pre_finite_inputs
import proofs.«142220_g29480655520053_cont_9to1_1343_8_alg».proof.Proof.ArrayValue
import proofs.«142220_g29480655520053_cont_9to1_1343_8_alg».proof.Proof.PreRow0
import proofs.«142220_g29480655520053_cont_9to1_1343_8_alg».proof.Proof.RefRun
import proofs.«142220_g29480655520053_cont_9to1_1343_8_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

/-- Both runs end at the specified result of the (agreeing) arguments: the kernel's by its run read through the
    blocks, the reference's by its term read at an index, where row `0` of the table is zero by the precondition. -/
theorem algebraic : Cert.algebraic_KernelIdeal_ReferenceIdeal := by
  intro m ρ m' ρ' hpre hagree
  refine ⟨fun c => Cert.PosEmbed.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2]
  exact Cert.ReferenceIdeal.RefValue.refTerm_eq _ _ fun d => Cert.PreDecode.row0_zero _ _ (hpre c) d

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
